-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S128x8192 : Shape := ⟨2, ![128, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_

variable [Facts]

def fn {F : FTy → Type} [FloatOps F] (main_arg0 : FVec F S8192x8192 .f32) (main_arg1 : FVec F S128x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  main_v8
-- ==== Kernel.lean ====
abbrev S8192x8192 : Shape := ⟨2, ![8192, 8192]⟩
abbrev S128x8192 : Shape := ⟨2, ![128, 8192]⟩
abbrev S8192x128 : Shape := ⟨2, ![8192, 128]⟩
abbrev S1024x2048 : Shape := ⟨2, ![1024, 2048]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S128x8192, .f32⟩
  | .hbm, ⟨2, _⟩ => ⟨S128x8192, .bf16⟩
  | .hbm, ⟨3, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S128x8192, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1, .f32⟩
  | .local _ .vmem, ⟨7, _⟩ => ⟨S1024x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v22 : BitVec 32 := Scalar.muli arg1 c2048_i32
  let c0_i32_9 : BitVec 32 := 0#32
  let v23 : BitVec 32 := Scalar.addi v22 c0_i32_9
  v23
def k0_off1 (i : grid0.Coords) (c0_i32_9 : BitVec 32) : Fin 2 → Nat :=
  let c0_10 : Index := 0#32
  let arg1 : BitVec 32 := BitVec.ofNat 32 (i 1).val
  let c2048_i32 : BitVec 32 := 2048#32
  let v22 : BitVec 32 := Scalar.muli arg1 c2048_i32
  let v23 : BitVec 32 := Scalar.addi v22 c0_i32_9
  let v24 : BitVec 32 := v23
  let v25 : Index := Scalar.indexCast v24
  ![0, v25.toNat]
def k0_mult2 (i : grid0.Coords) : BitVec 32 :=
  let arg1 : BitVec 32 := BitVec.ofNat 32 (i 1).val
  let c2048_i32_27 : BitVec 32 := 2048#32
  let v58 : BitVec 32 := Scalar.muli arg1 c2048_i32_27
  let c1024_i32 : BitVec 32 := 1024#32
  let v59 : BitVec 32 := Scalar.addi v58 c1024_i32
  v59
def k0_cond2 (i : grid0.Coords) : BitVec 1 :=
  let arg1 : BitVec 32 := BitVec.ofNat 32 (i 1).val
  let c3_i32 : BitVec 32 := 3#32
  let v75 : BitVec 1 := Scalar.cmpi .eq arg1 c3_i32
  let v76 : BitVec 32 := Scalar.extui v75
  let c0_i32_36 : BitVec 32 := 0#32
  let v77 : BitVec 1 := Scalar.cmpi .ne v76 c0_i32_36
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x1024_0_0 : ∀ a, (![0, 0] : Fin 2 → Nat) a + S1024x1024.size a ≤ S1024x2048.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  h_S128x1024 : 0 < S128x1024.numel
  shapeCasts_S128x1024_S128x1024 : S128x1024.ShapeCasts S128x1024
  broadcasts_S1024x1_S1024x128 : S1024x1.Broadcasts S1024x128
  inb_S1024x2048_S1024x1024_0_1024 : ∀ a, (![0, 1024] : Fin 2 → Nat) a + S1024x1024.size a ≤ S1024x2048.size a
  dot_S1024x1024_S128x1024_S1024x128_1_1_0_0_n_n_wf : DotDims.WF S1024x1024 S128x1024 S1024x128 [1] [1] [0] [0] [] []
  hrank0 : 0 < grid0.rank
  k0_mult1_dvd : ∀ i : grid0.Coords, 128 ∣ (k0_mult1 i).toNat
  k0_off1_inb : ∀ i : grid0.Coords, ∀ (r : Fin 2), ∀ a, (k0_off1 i (BitVec.ofNat 32 (1024 * r.val))) a + S128x1024.size a ≤ S128x8192.size a
  k0_mult2_dvd : ∀ i : grid0.Coords, 128 ∣ (k0_mult2 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S128x8192 : Shape := ⟨2, ![128, 8192]⟩
abbrev S_ : Shape := ⟨0, ![]⟩
abbrev S8192 : Shape := ⟨1, ![8192]⟩
abbrev S8192x1 : Shape := ⟨2, ![8192, 1]⟩
abbrev S8192x128 : Shape := ⟨2, ![8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S128x8192, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x8192_S128x8192_S8192x128_1_1_0_0_n_n_wf : DotDims.WF S8192x8192 S128x8192 S8192x128 [1] [1] [0] [0] [] []

variable [Facts₀]

def dot_S8192x8192_S128x8192_S8192x128_1_1_0_0_n_n : DotDims S8192x8192 S128x8192 S8192x128 where
  lhsContracting := [1]
  rhsContracting := [1]
  lhsNonContracting := [0]
  rhsNonContracting := [0]
  lhsBatch := []
  rhsBatch := []
  wf := dot_S8192x8192_S128x8192_S8192x128_1_1_0_0_n_n_wf

class Facts : Prop extends Facts₀ where

variable [Facts]
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
import proofs.«100095_j54812372631763_2_alg».proof.Pre_finite_inputs
import proofs.«100095_j54812372631763_2_alg».proof.Proof.LibFiniteEntry
import Idealize.ShloMosaic.Lib.ReduceAll
import Idealize.ShloMosaic.Lib.Affine

noncomputable section

namespace Cert.Pre_finite_inputs.Finite

open Cert.Pre_finite_inputs Cert.Lib.FiniteEntry Idealize.ShloMosaic

/-- The precondition, all ones, says every entry of both arguments has absolute value below plus infinity: on the
    extended reals, every entry is a real number. -/
theorem entries_real [Facts] (a0 : FVec Ideal S8192x8192 .f32) (a1 : FVec Ideal S128x8192 .f32)
    (h : fn (F := Ideal) a0 a1 = fun _ => 1#1) :
    (∀ i, ∃ r : ℝ, a0 i = (r : EReal)) ∧ (∀ i, ∃ r : ℝ, a1 i = (r : EReal)) := by
  have h1 := congrFun h (fun a => a.elim0)
  dsimp only [fn] at h1
  obtain ⟨h3, h7⟩ := IntOp.andi_eq_one.mp h1
  exact ⟨fun i => entry_real _ a0 i (Host.reduce_andi_all _ _ _ _ _ h3 i),
    fun i => entry_real _ a1 i (Host.reduce_andi_all _ _ _ _ _ h7 i)⟩

end Cert.Pre_finite_inputs.Finite

end
-- ==== Proof.KernelPieces.lean ====
import proofs.«100095_j54812372631763_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! # What one grid point leaves in the carried buffers

A grid point holds a 1024 × 2048 tile of the scores and all of the values. Its body treats the tile as two halves of
1024 columns, one after the other. For each half it raises the running row maximum, rescales the running row sum and the
running weighted sum of the values by the exponential of the old maximum minus the new one, and adds the half's own
exponentials (and their products with the matching 1024 columns of the values). The three carried buffers therefore end a
point holding a twice-iterated update of what they held before it; at a row block's first point they start from the
constant fills, and at its last point the output tile is the weighted sum divided by the row sum.

Everything here holds for any float instance: it only says which composition of the body's arithmetic each buffer holds. -/

theorem hz : (![0, 0] : Fin 2 → Nat) = fun _ => 0 := funext fun a => by fin_cases a <;> rfl

/-- Columns 0 … 1023 of the score tile. -/
abbrev sLo (x0 : Vec F S1024x2048 .f32) : Vec F S1024x1024 .f32 :=
  View.ld x0 (Rect.unit ![0, 0] ![1024, 1024] inb_S1024x2048_S1024x1024_0_0)

/-- Columns 1024 … 2047 of the score tile. -/
abbrev sHi (x0 : Vec F S1024x2048 .f32) : Vec F S1024x1024 .f32 :=
  View.ld x0 (Rect.unit ![0, 1024] ![1024, 1024] inb_S1024x2048_S1024x1024_0_1024)

/-- The 1024 columns of the values that face the tile's first half. -/
abbrev vLo (i : grid0.Coords) (x1 : Vec F S128x8192 .bf16) : Vec F S128x1024 .bf16 :=
  View.ld x1 (Rect.unit (k0_off1 i 0#32) ![128, 1024] (k0_off1_inb i 0))

/-- The 1024 columns of the values that face the tile's second half. -/
abbrev vHi (i : grid0.Coords) (x1 : Vec F S128x8192 .bf16) : Vec F S128x1024 .bf16 :=
  View.ld x1 (Rect.unit (k0_off1 i 1024#32) ![128, 1024] (k0_off1_inb i 1))

/-- The running maximum after the first half. -/
def midMax (x0 : Vec F S1024x2048 .f32) (mx : Vec F S1024x1 .f32) : Vec F S1024x1 .f32 :=
  k0_pay11 (k0_pay6 (sLo x0) mx)

/-- The running maximum after both halves. -/
def newMax (x0 : Vec F S1024x2048 .f32) (mx : Vec F S1024x1 .f32) : Vec F S1024x1 .f32 :=
  k0_pay1 (k0_pay12 (sHi x0) (midMax x0 mx))

/-- The running row sum after the first half. -/
def midSum (x0 : Vec F S1024x2048 .f32) (mx sm : Vec F S1024x1 .f32) : Vec F S1024x1 .f32 :=
  k0_pay9 (sLo x0) mx sm

/-- The running row sum after both halves. -/
def newSum (x0 : Vec F S1024x2048 .f32) (mx sm : Vec F S1024x1 .f32) : Vec F S1024x1 .f32 :=
  k0_pay15 (sHi x0) (midMax x0 mx) (midSum x0 mx sm)

/-- The running weighted sum of the values after the first half. -/
def midAcc (i : grid0.Coords) (x0 : Vec F S1024x2048 .f32) (x1 : Vec F S128x8192 .bf16) (ac : Vec F S1024x128 .f32)
    (mx : Vec F S1024x1 .f32) : Vec F S1024x128 .f32 :=
  k0_pay10 (sLo x0) mx (vLo i x1) ac

/-- The running weighted sum of the values after both halves. -/
def newAcc (i : grid0.Coords) (x0 : Vec F S1024x2048 .f32) (x1 : Vec F S128x8192 .bf16) (ac : Vec F S1024x128 .f32)
    (mx : Vec F S1024x1 .f32) : Vec F S1024x128 .f32 :=
  k0_pay16 (sHi x0) (midMax x0 mx) (vHi i x1) (midAcc i x0 x1 ac mx)

/-- At a row block's first point the weighted sum starts from the zero fill and the maximum from its constant fill. -/
theorem first_acc (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x2048 .f32) (x1 : Vec F S128x8192 .bf16) :
    sout0_A_0 c i arg2 harg2 arg3 harg3 arg4 harg4 arg5 harg5 arg6 harg6 arg7 harg7 hc0 hc1 x0 x1 = newAcc i x0 x1 (k0_pay5 (F := F)) (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x128) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a row block's first point the running maximum starts from its constant fill. -/
theorem first_max (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x2048 .f32) (x1 : Vec F S128x8192 .bf16) :
    sout0_A_1 c i arg2 harg2 arg3 harg3 arg4 harg4 arg5 harg5 arg6 harg6 arg7 harg7 hc0 hc1 x0 x1 = newMax x0 (k0_pay3 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a row block's first point the row sum starts from the zero fill. -/
theorem first_sum (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x2048 .f32) (x1 : Vec F S128x8192 .bf16) :
    sout0_A_2 c i arg2 harg2 arg3 harg3 arg4 harg4 arg5 harg5 arg6 harg6 arg7 harg7 hc0 hc1 x0 x1 = newSum x0 (k0_pay3 (F := F)) (k0_pay4 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a middle point the weighted sum is updated from what the point before left. -/
theorem next_acc (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x2048 .f32) (x1 : Vec F S128x8192 .bf16) (xs0 : Vec F S1024x128 .f32) (xs1 : Vec F S1024x1 .f32) (xs2 : Vec F S1024x1 .f32) :
    sout0_B_0 c i arg2 harg2 arg3 harg3 arg4 harg4 arg5 harg5 arg6 harg6 arg7 harg7 hc0 hc1 x0 x1 xs0 xs1 xs2 = newAcc i x0 x1 xs0 xs1 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S1024x128) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a middle point the running maximum is updated from what the point before left. -/
theorem next_max (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x2048 .f32) (x1 : Vec F S128x8192 .bf16) (xs0 : Vec F S1024x128 .f32) (xs1 : Vec F S1024x1 .f32) (xs2 : Vec F S1024x1 .f32) :
    sout0_B_1 c i arg2 harg2 arg3 harg3 arg4 harg4 arg5 harg5 arg6 harg6 arg7 harg7 hc0 hc1 x0 x1 xs0 xs1 xs2 = newMax x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S1024x1) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a middle point the row sum is updated from what the point before left. -/
theorem next_sum (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x2048 .f32) (x1 : Vec F S128x8192 .bf16) (xs0 : Vec F S1024x128 .f32) (xs1 : Vec F S1024x1 .f32) (xs2 : Vec F S1024x1 .f32) :
    sout0_B_2 c i arg2 harg2 arg3 harg3 arg4 harg4 arg5 harg5 arg6 harg6 arg7 harg7 hc0 hc1 x0 x1 xs0 xs1 xs2 = newSum x0 xs1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S1024x1) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a row block's last point the weighted sum is updated as at a middle point. -/
theorem last_acc (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .f32) (x1 : Vec F S128x8192 .bf16) (xs0 : Vec F S1024x128 .f32) (xs1 : Vec F S1024x1 .f32) (xs2 : Vec F S1024x1 .f32) :
    sout0_C_0 c i arg2 harg2 arg3 harg3 arg4 harg4 arg5 harg5 arg6 harg6 arg7 harg7 hc0 hc1 x0 x1 xs0 xs1 xs2 = newAcc i x0 x1 xs0 xs1 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x128) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a row block's last point the running maximum is updated as at a middle point. -/
theorem last_max (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .f32) (x1 : Vec F S128x8192 .bf16) (xs0 : Vec F S1024x128 .f32) (xs1 : Vec F S1024x1 .f32) (xs2 : Vec F S1024x1 .f32) :
    sout0_C_1 c i arg2 harg2 arg3 harg3 arg4 harg4 arg5 harg5 arg6 harg6 arg7 harg7 hc0 hc1 x0 x1 xs0 xs1 xs2 = newMax x0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x1) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a row block's last point the row sum is updated as at a middle point. -/
theorem last_sum (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .f32) (x1 : Vec F S128x8192 .bf16) (xs0 : Vec F S1024x128 .f32) (xs1 : Vec F S1024x1 .f32) (xs2 : Vec F S1024x1 .f32) :
    sout0_C_2 c i arg2 harg2 arg3 harg3 arg4 harg4 arg5 harg5 arg6 harg6 arg7 harg7 hc0 hc1 x0 x1 xs0 xs1 xs2 = newSum x0 xs1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S1024x1) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

/-- At a row block's last point the output tile is the final weighted sum divided, row by row, by the final row sum. -/
theorem last_out (c : Dev nD) (i : grid0.Coords) (arg2 : Memref sig .tc .vmem S1024x2048 .f32) (harg2 : arg2.IsWhole) (arg3 : Memref sig .tc .vmem S128x8192 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .f32) (x1 : Vec F S128x8192 .bf16) (xs0 : Vec F S1024x128 .f32) (xs1 : Vec F S1024x1 .f32) (xs2 : Vec F S1024x1 .f32) :
    out0_C_2 c i arg2 harg2 arg3 harg3 arg4 harg4 arg5 harg5 arg6 harg6 arg7 harg7 hc0 hc1 x0 x1 xs0 xs1 xs2 = k0_pay2 (newAcc i x0 x1 xs0 xs1) (newSum x0 xs1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S1024x128) hz]
  simp only [View.readCov_cons_toLoadRect, View.readCov_unit_zero (S := S1024x1) _ hz, View.readCov_unit_zero (S := S1024x128) _ hz, View.readAt_eq_ld,
    harg2.read_unread, harg3.read_unread, harg5.read_unread, harg6.read_unread, harg7.read_unread,
    View.ld_unit_zero (S := S1024x1) hz, View.ld_unit_zero (S := S1024x128) hz]
  rfl

end Cert.KernelIdeal.Pieces

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibTransposedDot.lean ====
/-
  A matrix product with the right operand transposed, read at an entry, on the extended reals.

  For the dimension numbers of an `M×K` by `N×K` product (`DotDims.transposedRhs M K N`: contract the second axis of
  the left operand with the second axis of the right operand, no batch axis; the result is `M×N`) — the product
  `l · rᵀ` — the sum over the contraction index of the operands' products at output entry `(p, j)` is
  `∑ k, l (p, k) * r (j, k)`: the contraction index is its one coordinate `k`, the left operand is read at row `p`,
  column `k`, the right at row `j`, column `k`. From it: a vector-unit matrix product into the zero accumulator
  (`matmul_zero_apply`), one into any accumulator (`matmul_apply`) and the host's `dot_general`
  (`dotGeneral_apply`) at `(p, j)`. A printed program's own record of these dimension numbers is
  `DotDims.transposedRhs` of its literal sizes by `rfl` (the records differ only in the proof of well-formedness).
-/
import Idealize.ShloMosaic.Lib.ValueIdx
import Idealize.ShloMosaic.PureOps.Ideal.Laws

noncomputable section

open scoped BigOperators

namespace Cert.Lib.TransposedDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output `(p, j)` and contraction coordinate `k` is `(p, k)`. -/
theorem lhsIdx_eq (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output `(p, j)` and contraction coordinate `k` is `(j, k)`. -/
theorem rhsIdx_eq (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output `(p, j)` is the sum over the contracted coordinate. -/
theorem sum_eq (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_eq, rhsIdx_eq]

/-- A matrix product on the vector unit into the zero accumulator, at entry `(p, j)`. -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_eq l r p j

/-- A matrix product on the vector unit into any accumulator, at entry `(p, j)`: the accumulator there plus the sum. -/
theorem matmul_apply (prec : Option ContractPrecision) (l : FVec Ideal ⟨2, ![M, K]⟩ φ₁) (r : FVec Ideal ⟨2, ![N, K]⟩ φ₂)
    (acc : FVec Ideal ⟨2, ![M, N]⟩ .f32) (p : Fin M) (j : Fin N) :
    FloatOps.matmul (DotDims.transposedRhs M K N) prec l r acc (ix2 p j)
      = acc (ix2 p j) + ∑ k : Fin K, l (ix2 p k) * r (ix2 j k) := by
  rw [Ideal.matmul_apply]
  exact congrArg (acc (ix2 p j) + ·) (sum_eq l r p j)

/-- The host's `dot_general` at entry `(p, j)`, whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_eq l r p j

end Cert.Lib.TransposedDot

end
-- ==== Proof.LibOnlineSoftmax.lean ====
/-
  The online form of a softmax-weighted average, for one row of scores and one channel of values.

  A row of scores `s` and values `v` is visited in consecutive chunks. A state `(m, l, a)` is carried: a running
  maximum, a running sum of exponentials and a running weighted sum. One chunk replaces `m` by the larger of `m` and the
  chunk's maximum, multiplies `l` and `a` by `exp (m_old - m_new)`, and adds the chunk's `exp (s k - m_new)`
  (times `v k` for `a`). After the last chunk the answer is `a / l`.

  For real data this is the softmax-weighted average `∑ k, (exp (s k - M) / ∑ k', exp (s k' - M)) * v k` for EVERY real
  `M`: after any number of chunks `l = ∑ exp (s k - m)` and `a = ∑ exp (s k - m) * v k` over the columns seen so far,
  with `m` some real number (which one never matters), and a common positive factor `exp (M - m)` cancels in the
  quotient. In particular the running maximum may start from any real number, not only from minus infinity. All of this is
  stated on the extended reals with their textbook operations and proved by pushing the real data through the coercion.
-/
import Idealize.ShloMosaic.PureOps.Ideal
import Mathlib.Analysis.SpecialFunctions.Exp
import Mathlib.Algebra.BigOperators.Fin
import Mathlib.Logic.Equiv.Fin.Basic
import Mathlib.Data.Finset.Fold

noncomputable section

open scoped BigOperators

namespace Cert.Lib.OnlineSoftmax

open Idealize.ShloMosaic

variable {ι : Type*} [Fintype ι]

/-- The coercion of a finite real sum is the sum of the coercions. -/
theorem coe_sum {κ : Type*} (S : Finset κ) (f : κ → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- One chunk's update of `(maximum, sum of exponentials, weighted sum)`; `b` is the value the chunk's own maximum is
    folded from. -/
def step (b : EReal) (s v : ι → EReal) (st : EReal × EReal × EReal) : EReal × EReal × EReal :=
  (max st.1 (Finset.univ.fold max b s),
   Ideal.exp (st.1 - max st.1 (Finset.univ.fold max b s)) * st.2.1
     + ∑ k, Ideal.exp (s k - max st.1 (Finset.univ.fold max b s)),
   Ideal.exp (st.1 - max st.1 (Finset.univ.fold max b s)) * st.2.2
     + ∑ k, Ideal.exp (s k - max st.1 (Finset.univ.fold max b s)) * v k)

/-- The state after the first `n` chunks. -/
def run (b : EReal) (s v : ℕ → ι → EReal) (init : EReal × EReal × EReal) : ℕ → EReal × EReal × EReal
  | 0 => init
  | n + 1 => step b (s n) (v n) (run b s v init n)

/-- A maximum folded over real numbers, from a start other than plus infinity, is below plus infinity. -/
theorem fold_lt_top {b : EReal} (hb : b ≠ ⊤) (sr : ι → ℝ) :
    (Finset.univ : Finset ι).fold max b (fun k => (sr k : EReal)) < ⊤ :=
  (Finset.fold_max_lt _).2 ⟨lt_top_iff_ne_top.2 hb, fun k _ => EReal.coe_lt_top _⟩

/-- The larger of a real number and such a maximum is a real number. -/
theorem newMax_real {b : EReal} (hb : b ≠ ⊤) (m : ℝ) (sr : ι → ℝ) :
    ∃ m' : ℝ, max (m : EReal) ((Finset.univ : Finset ι).fold max b (fun k => (sr k : EReal))) = (m' : EReal) := by
  have h1 : max (m : EReal) ((Finset.univ : Finset ι).fold max b (fun k => (sr k : EReal))) ≠ ⊤ :=
    ne_of_lt (max_lt (EReal.coe_lt_top m) (fold_lt_top hb sr))
  have h2 : max (m : EReal) ((Finset.univ : Finset ι).fold max b (fun k => (sr k : EReal))) ≠ ⊥ :=
    ne_of_gt (lt_of_lt_of_le (EReal.bot_lt_coe m) (le_max_left _ _))
  exact ⟨_, (EReal.coe_toReal h1 h2).symm⟩

/-- The maximum of a nonempty family of real numbers, folded from a start other than plus infinity, is a real number. -/
theorem fold_real [Nonempty ι] {b : EReal} (hb : b ≠ ⊤) (sr : ι → ℝ) :
    ∃ M : ℝ, (Finset.univ : Finset ι).fold max b (fun k => (sr k : EReal)) = (M : EReal) := by
  obtain ⟨k0⟩ := (inferInstance : Nonempty ι)
  have h1 := ne_of_lt (fold_lt_top hb sr)
  have h2 : (Finset.univ : Finset ι).fold max b (fun k => (sr k : EReal)) ≠ ⊥ :=
    ne_of_gt (lt_of_lt_of_le (EReal.bot_lt_coe (sr k0))
      ((Finset.le_fold_max _).2 (Or.inr ⟨k0, Finset.mem_univ _, le_refl _⟩)))
  exact ⟨_, (EReal.coe_toReal h1 h2).symm⟩

/-- One chunk on real data: the new state is real, with the new sums the rescaled old ones plus the chunk's. -/
theorem step_real {b : EReal} (hb : b ≠ ⊤) (m l a : ℝ) (sr vr : ι → ℝ) :
    ∃ m' : ℝ, step b (fun k => (sr k : EReal)) (fun k => (vr k : EReal)) ((m : EReal), (l : EReal), (a : EReal))
      = ((m' : EReal), ((Real.exp (m - m') * l + ∑ k, Real.exp (sr k - m') : ℝ) : EReal),
          ((Real.exp (m - m') * a + ∑ k, Real.exp (sr k - m') * vr k : ℝ) : EReal)) := by
  obtain ⟨m', hm'⟩ := newMax_real hb m sr
  refine ⟨m', ?_⟩
  unfold step
  simp only [hm', ← EReal.coe_sub, Ideal.exp_coe, ← EReal.coe_mul, ← coe_sum, ← EReal.coe_add]

/-- THE INVARIANT. After `n` chunks of real data, from a real starting maximum and zero sums, the maximum is some real
    `μ` and the two sums are the sums over the columns seen so far of `exp (s - μ)` and of `exp (s - μ) * v`. -/
theorem run_real {b : EReal} (hb : b ≠ ⊤) (c0 : ℝ) (sr vr : ℕ → ι → ℝ) (n : ℕ) :
    ∃ μ : ℝ, run b (fun j k => (sr j k : EReal)) (fun j k => (vr j k : EReal)) ((c0 : EReal), 0, 0) n
      = ((μ : EReal), ((∑ j ∈ Finset.range n, ∑ k, Real.exp (sr j k - μ) : ℝ) : EReal),
          ((∑ j ∈ Finset.range n, ∑ k, Real.exp (sr j k - μ) * vr j k : ℝ) : EReal)) := by
  induction n with
  | zero => exact ⟨c0, by simp [run]⟩
  | succ n ih =>
    obtain ⟨μ, hμ⟩ := ih
    obtain ⟨μ', hμ'⟩ := step_real hb μ (∑ j ∈ Finset.range n, ∑ k, Real.exp (sr j k - μ))
      (∑ j ∈ Finset.range n, ∑ k, Real.exp (sr j k - μ) * vr j k) (sr n) (vr n)
    refine ⟨μ', ?_⟩
    have e : ∀ x : ℝ, Real.exp (μ - μ') * Real.exp (x - μ) = Real.exp (x - μ') := fun x => by
      rw [← Real.exp_add]; congr 1; ring
    show step b _ _ (run b _ _ _ n) = _
    have e1 : Real.exp (μ - μ') * ∑ j ∈ Finset.range n, ∑ k, Real.exp (sr j k - μ)
        = ∑ j ∈ Finset.range n, ∑ k, Real.exp (sr j k - μ') := by
      rw [Finset.mul_sum]
      refine Finset.sum_congr rfl fun j _ => ?_
      rw [Finset.mul_sum]
      exact Finset.sum_congr rfl fun k _ => e _
    have e2 : Real.exp (μ - μ') * ∑ j ∈ Finset.range n, ∑ k, Real.exp (sr j k - μ) * vr j k
        = ∑ j ∈ Finset.range n, ∑ k, Real.exp (sr j k - μ') * vr j k := by
      rw [Finset.mul_sum]
      refine Finset.sum_congr rfl fun j _ => ?_
      rw [Finset.mul_sum]
      exact Finset.sum_congr rfl fun k _ => by rw [← mul_assoc, e]
    rw [hμ, hμ', Finset.sum_range_succ, Finset.sum_range_succ, e1, e2]

/-- THE LAW. For real scores and values over a nonempty finite set, the softmax-weighted sum taken against ANY real
    shift `M` — each exponential divided by the sum of them all, then times its value, then summed — is the quotient of
    `∑ exp (s - μ) * v` by `∑ exp (s - μ)` for any other real shift `μ`: the factor `exp (μ - M)` is common. -/
theorem softmax_quotient {τ : Type*} [Fintype τ] [Nonempty τ] (sr vr : τ → ℝ) (M μ : ℝ) :
    (∑ k, Ideal.div (Ideal.exp ((sr k : EReal) - (M : EReal))) (∑ k', Ideal.exp ((sr k' : EReal) - (M : EReal))) * (vr k : EReal))
      = Ideal.div ((∑ k, Real.exp (sr k - μ) * vr k : ℝ) : EReal) ((∑ k, Real.exp (sr k - μ) : ℝ) : EReal) := by
  have hA : (0 : ℝ) < ∑ k, Real.exp (sr k - M) := Finset.sum_pos (fun k _ => Real.exp_pos _) Finset.univ_nonempty
  have hB : (0 : ℝ) < ∑ k, Real.exp (sr k - μ) := Finset.sum_pos (fun k _ => Real.exp_pos _) Finset.univ_nonempty
  simp only [← EReal.coe_sub, Ideal.exp_coe, ← coe_sum, Ideal.div_coe (ne_of_gt hA), Ideal.div_coe (ne_of_gt hB),
    ← EReal.coe_mul]
  refine congrArg _ ?_
  have e : ∀ x : ℝ, Real.exp (x - M) = Real.exp (x - μ) * Real.exp (μ - M) := fun x => by
    rw [← Real.exp_add]; congr 1; ring
  have hA' : ∑ k, Real.exp (sr k - M) = (∑ k, Real.exp (sr k - μ)) * Real.exp (μ - M) := by
    rw [Finset.sum_mul]; exact Finset.sum_congr rfl fun k _ => e _
  rw [Finset.sum_mul]
  refine Finset.sum_congr rfl fun k _ => ?_
  rw [hA', e]
  have hc : Real.exp (μ - M) ≠ 0 := ne_of_gt (Real.exp_pos _)
  have hB' : (∑ k, Real.exp (sr k - μ)) ≠ 0 := ne_of_gt hB
  field_simp

/-! ## A row of `K * n` columns visited as `K` chunks of `n` -/

/-- Column `k` of chunk `j`, among `K` chunks of `n` consecutive columns. -/
abbrev col {K n : ℕ} (j : Fin K) (k : Fin n) : Fin (K * n) :=
  ⟨j.val * n + k.val, Nat.lt_of_lt_of_le (Nat.add_lt_add_left k.isLt _)
    (by rw [← Nat.succ_mul]; exact Nat.mul_le_mul_right _ j.isLt)⟩

/-- Chunk `j` of a row, as a function of the column inside the chunk (a filler value past the last chunk). -/
def chunk {α : Type*} {K n : ℕ} (f : Fin (K * n) → α) (z : α) (j : ℕ) (k : Fin n) : α :=
  if h : j < K then f (col ⟨j, h⟩ k) else z

theorem chunk_of_lt {α : Type*} {K n : ℕ} (f : Fin (K * n) → α) (z : α) (j : ℕ) (h : j < K) (k : Fin n) :
    chunk f z j k = f (col ⟨j, h⟩ k) := dif_pos h

/-- A sum over the chunks, then inside each chunk, is the sum over the row. -/
theorem sum_chunks {K n : ℕ} (g : Fin (K * n) → ℝ) :
    ∑ j ∈ Finset.range K, ∑ k : Fin n, chunk g 0 j k = ∑ i, g i := by
  rw [← Fin.sum_univ_eq_sum_range (fun j => ∑ k : Fin n, chunk g 0 j k) K,
    ← Equiv.sum_comp finProdFinEquiv g, Fintype.sum_prod_type]
  refine Finset.sum_congr rfl fun j _ => Finset.sum_congr rfl fun k _ => ?_
  rw [chunk_of_lt g 0 j.val j.isLt k]
  refine congrArg g (Fin.ext ?_)
  show j.val * n + k.val = k.val + n * j.val
  rw [Nat.mul_comm, Nat.add_comm]

/-- THE RESULT. A row of `K * n` real scores with real values, visited as `K` chunks of `n` from a real starting
    maximum and zero sums, ends with weighted sum over sum equal to the softmax-weighted sum of the values, whatever real
    shift the softmax is written with. -/
theorem online_eq_softmax (K n : ℕ) [Nonempty (Fin (K * n))] {b : EReal} (hb : b ≠ ⊤) (c0 : ℝ)
    (sr vr : Fin (K * n) → ℝ) (M : ℝ) :
    Ideal.div (run b (chunk (fun k => (sr k : EReal)) 0) (chunk (fun k => (vr k : EReal)) 0) ((c0 : EReal), 0, 0) K).2.2
        (run b (chunk (fun k => (sr k : EReal)) 0) (chunk (fun k => (vr k : EReal)) 0) ((c0 : EReal), 0, 0) K).2.1
      = ∑ k, Ideal.div (Ideal.exp ((sr k : EReal) - (M : EReal))) (∑ k', Ideal.exp ((sr k' : EReal) - (M : EReal)))
          * (vr k : EReal) := by
  have hs : chunk (fun k => (sr k : EReal)) 0 = fun j k => ((chunk sr 0 j k : ℝ) : EReal) := by
    funext j k; unfold chunk; split <;> simp
  have hv : chunk (fun k => (vr k : EReal)) 0 = fun j k => ((chunk vr 0 j k : ℝ) : EReal) := by
    funext j k; unfold chunk; split <;> simp
  obtain ⟨μ, hμ⟩ := run_real (ι := Fin n) hb c0 (chunk sr 0) (chunk vr 0) K
  rw [hs, hv, hμ, softmax_quotient sr vr M μ]
  have e1 : ∑ j ∈ Finset.range K, ∑ k : Fin n, Real.exp (chunk sr 0 j k - μ)
      = ∑ i, Real.exp (sr i - μ) := by
    rw [← sum_chunks (fun i => Real.exp (sr i - μ))]
    refine Finset.sum_congr rfl fun j _ => Finset.sum_congr rfl fun k _ => ?_
    unfold chunk; split
    · rfl
    · rename_i h; exact absurd (Finset.mem_range.1 ‹_›) h
  have e2 : ∑ j ∈ Finset.range K, ∑ k : Fin n, Real.exp (chunk sr 0 j k - μ) * chunk vr 0 j k
      = ∑ i, Real.exp (sr i - μ) * vr i := by
    rw [← sum_chunks (fun i => Real.exp (sr i - μ) * vr i)]
    refine Finset.sum_congr rfl fun j _ => Finset.sum_congr rfl fun k _ => ?_
    unfold chunk; split
    · rfl
    · rename_i h; exact absurd (Finset.mem_range.1 ‹_›) h
  show Ideal.div _ _ = _
  rw [e1, e2]

end Cert.Lib.OnlineSoftmax

end
-- ==== Proof.KernelStep.lean ====
import proofs.«100095_j54812372631763_2_alg».proof.Proof.KernelPieces
import proofs.«100095_j54812372631763_2_alg».proof.Proof.LibKeepdims
import proofs.«100095_j54812372631763_2_alg».proof.Proof.LibTransposedDot
import proofs.«100095_j54812372631763_2_alg».proof.Proof.LibOnlineSoftmax

set_option maxRecDepth 16384

noncomputable section

open Idealize.ShloMosaic Idealize.ShloMosaic.TcCoe Idealize.SL.Sem

namespace Cert.KernelIdeal.Step

open Cert.KernelIdeal Cert.KernelIdeal.Gen Cert.KernelIdeal.Pieces
open Idealize.ShloMosaic.ValueIdx Idealize.ShloMosaic.ValueKeepdims Cert.Lib.OnlineSoftmax

/-! # One grid point on one row, on the extended reals

Read at row `p` (and value channel `d`), the arithmetic of one half of a score tile is exactly one `step` of the online
softmax on that row's 1024 scores and the channel's matching 1024 values: the row maximum is a fold of `max` from minus
infinity joined with the old maximum, the exponentials are taken against the new maximum, the row sum is a lane sum, and
the matrix product into a zero accumulator is the sum over the 1024 columns of exponential times value (rounding the
exponentials to a shorter format changes nothing on the extended reals). A grid point is two such steps. -/

/-- The word the row maxima are folded from: minus infinity. -/
abbrev negInf : EReal := Ideal.ofBits .f32 0xFF800000#32

theorem negInf_ne_top : negInf ≠ ⊤ := by
  simp [negInf, Ideal.ofBits, Ideal.ieee]

/-- The new maximum of row `p`: the old one joined with the half's row maximum. -/
theorem rowMax_apply (s : Vec Ideal S1024x1024 .f32) (mx : Vec Ideal S1024x1 .f32) (p : Fin 1024) :
    k0_pay6 s mx (ix2 p 0)
      = max (mx (ix2 p 0)) ((Finset.univ : Finset (Fin 1024)).fold max negInf fun k => s (ix2 p k)) := by
  unfold k0_pay6
  exact congrArg (max (mx (ix2 p 0)))
    ((shapeCast_a_a1_apply _ _ p 0).trans (multiReduction_maximumf_row s _ _ _ _ p))

/-- The exponentials of row `p`, against the new maximum. -/
theorem rowExp_apply (s : Vec Ideal S1024x1024 .f32) (mx : Vec Ideal S1024x1 .f32) (p k : Fin 1024) :
    k0_pay7 s mx (ix2 p k) = Ideal.exp (s (ix2 p k) - k0_pay6 s mx (ix2 p 0)) := by
  unfold k0_pay7
  exact congrArg (fun z => Ideal.exp (s (ix2 p k) - z)) (broadcastTo_a1_ab_apply _ _ p k)

/-- The factor the old sums of row `p` are rescaled by. -/
theorem rowScale_apply (s : Vec Ideal S1024x1024 .f32) (mx : Vec Ideal S1024x1 .f32) (p : Fin 1024) :
    k0_pay8 s mx (ix2 p 0) = Ideal.exp (mx (ix2 p 0) - k0_pay6 s mx (ix2 p 0)) := by
  unfold k0_pay8
  rfl

/-- The new row sum of row `p`. -/
theorem rowSum_apply (s : Vec Ideal S1024x1024 .f32) (mx sm : Vec Ideal S1024x1 .f32) (p : Fin 1024) :
    k0_pay9 s mx sm (ix2 p 0)
      = k0_pay8 s mx (ix2 p 0) * sm (ix2 p 0) + ∑ k : Fin 1024, k0_pay7 s mx (ix2 p k) := by
  unfold k0_pay9
  refine (congrFun (shapeCast_self _ _) _).trans ?_
  exact congrArg (k0_pay8 s mx (ix2 p 0) * sm (ix2 p 0) + ·)
    ((shapeCast_a_a1_apply _ _ p 0).trans (multiReduction_add_row (k0_pay7 s mx) _ _ _ _ p))

/-- The new weighted sum of row `p`, channel `d`. -/
theorem rowAcc_apply (s : Vec Ideal S1024x1024 .f32) (mx : Vec Ideal S1024x1 .f32) (v : Vec Ideal S128x1024 .bf16)
    (ac : Vec Ideal S1024x128 .f32) (p : Fin 1024) (d : Fin 128) :
    k0_pay10 s mx v ac (ix2 p d)
      = k0_pay8 s mx (ix2 p 0) * ac (ix2 p d) + ∑ k : Fin 1024, k0_pay7 s mx (ix2 p k) * v (ix2 d k) := by
  unfold k0_pay10
  refine (congrFun (shapeCast_self _ _) _).trans ?_
  refine congrArg₂ (fun a b => a * ac (ix2 p d) + b) (broadcastTo_a1_ab_apply _ _ p d) ?_
  refine (Cert.Lib.TransposedDot.matmul_zero_apply (M := 1024) (K := 1024) (N := 128) none _ _ p d).trans ?_
  exact Finset.sum_congr rfl fun k _ => congrArg (k0_pay7 s mx (ix2 p k) * ·) (congrFun (shapeCast_self v _) _)

/-- ONE HALF IS ONE STEP: on row `p` and channel `d`, the three payloads of a half are the online softmax's update of
    `(maximum, row sum, weighted sum)` by that row's scores and that channel's values. -/
theorem half_eq_step (s : Vec Ideal S1024x1024 .f32) (v : Vec Ideal S128x1024 .bf16) (mx sm : Vec Ideal S1024x1 .f32)
    (ac : Vec Ideal S1024x128 .f32) (p : Fin 1024) (d : Fin 128) :
    (k0_pay6 s mx (ix2 p 0), k0_pay9 s mx sm (ix2 p 0), k0_pay10 s mx v ac (ix2 p d))
      = step negInf (fun k => s (ix2 p k)) (fun k => v (ix2 d k)) (mx (ix2 p 0), sm (ix2 p 0), ac (ix2 p d)) := by
  unfold step
  refine Prod.ext (rowMax_apply s mx p) (Prod.ext ?_ ?_)
  · show k0_pay9 s mx sm (ix2 p 0) = _
    rw [rowSum_apply, rowScale_apply]
    simp only [rowExp_apply, rowMax_apply]
  · show k0_pay10 s mx v ac (ix2 p d) = _
    rw [rowAcc_apply, rowScale_apply]
    simp only [rowExp_apply, rowMax_apply]

/-- The second half's payloads are the first half's, written again. -/
theorem pay12_eq : @k0_pay12 Ideal _ = @k0_pay6 Ideal _ := rfl
theorem pay15_eq : @k0_pay15 Ideal _ = @k0_pay9 Ideal _ := rfl
theorem pay16_eq : @k0_pay16 Ideal _ = @k0_pay10 Ideal _ := rfl

/-- Storing a column and loading it again changes nothing. -/
theorem pay11_eq (x : FVec Ideal S1024x1 .f32) : k0_pay11 (F := Ideal) x = x := shapeCast_self _ _
theorem pay1_eq (x : FVec Ideal S1024x1 .f32) : k0_pay1 (F := Ideal) x = x := shapeCast_self _ _

/-- A WHOLE POINT IS TWO STEPS: on row `p` and channel `d`, what a grid point leaves in the three carried buffers is the
    first half's step followed by the second half's. -/
theorem point_eq_steps (i : grid0.Coords) (x0 : Vec Ideal S1024x2048 .f32) (x1 : Vec Ideal S128x8192 .bf16)
    (mx sm : Vec Ideal S1024x1 .f32) (ac : Vec Ideal S1024x128 .f32) (p : Fin 1024) (d : Fin 128) :
    (newMax x0 mx (ix2 p 0), newSum x0 mx sm (ix2 p 0), newAcc i x0 x1 ac mx (ix2 p d))
      = step negInf (fun k => sHi x0 (ix2 p k)) (fun k => vHi i x1 (ix2 d k))
          (step negInf (fun k => sLo x0 (ix2 p k)) (fun k => vLo i x1 (ix2 d k))
            (mx (ix2 p 0), sm (ix2 p 0), ac (ix2 p d))) := by
  rw [← half_eq_step (sLo x0) (vLo i x1) mx sm ac p d,
    ← half_eq_step (sHi x0) (vHi i x1) (k0_pay6 (sLo x0) mx) (k0_pay9 (sLo x0) mx sm) (k0_pay10 (sLo x0) mx (vLo i x1) ac) p d]
  unfold newMax newSum newAcc midMax midSum midAcc
  rw [pay12_eq, pay15_eq, pay16_eq]
  simp only [pay11_eq, pay1_eq]

end Cert.KernelIdeal.Step

end
-- ==== Proof.LibRealWord.lean ====
/-
  An IEEE-754 bit pattern whose exponent field is not all ones denotes a real number.

  A pattern with sign bit, `e` exponent bits and `m` significand bits reads on the extended reals as a zero or
  subnormal `± T · 2^(1 - bias - m)`, a normal `± (2^m + T) · 2^(E - bias - m)`, or — only when the exponent field is
  all ones — an infinity or a NaN. So away from the all-ones exponent the value is (the coercion of) a real number
  (`ieee_real`), in particular for an f32 word (`ofBits_f32_real`): the hypothesis is a closed statement about the
  word's bits that `decide` settles for a literal.
-/
import Idealize.ShloMosaic.PureOps.Ideal

noncomputable section

namespace Cert.Lib.RealWord

open Idealize.ShloMosaic

/-- An IEEE pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- An f32 word whose eight exponent bits are not all ones denotes a real number. -/
theorem ofBits_f32_real (b : BitVec 32) (h : (b.extractLsb' 23 8).toNat ≠ 2 ^ 8 - 1) :
    ∃ r : ℝ, Ideal.ofBits .f32 b = (r : EReal) :=
  ieee_real 8 23 b h

end Cert.Lib.RealWord

end
-- ==== Proof.KernelValue.lean ====
import proofs.«100095_j54812372631763_2_alg».proof.Proof.Gen.KernelIdeal.Value
import proofs.«100095_j54812372631763_2_alg».proof.Proof.KernelStep
import proofs.«100095_j54812372631763_2_alg».proof.Proof.LibRealWord
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.FlashValue

open Cert.KernelIdeal Cert.KernelIdeal.Gen Cert.KernelIdeal.Pieces Cert.KernelIdeal.Step
open Idealize.ShloMosaic.ValueIdx Idealize.ShloMosaic.ValueKeepdims Cert.Lib.OnlineSoftmax

/-! # The kernel's result array, on the extended reals

The grid is 8 row blocks of 1024 rows by 4 column blocks of 2048 columns, the column block moving fastest. Point
`t = 4·qi + ki` holds rows `1024·qi …` and columns `2048·ki …` of the scores and all of the values, and its two halves
are chunks `2·ki` and `2·ki + 1` of the 8 chunks of 1024 columns a row is cut into. So after point `t` the three carried
buffers hold, at row `p` (and channel `d`), the online-softmax state of row `1024·qi + p` after `2·ki + 2` chunks; the
output tile, written at `ki = 3` only, is the state's weighted sum over its row sum after all 8 chunks; and the 8 tiles
written back at those points tile the result array. -/

variable (m : (ℓ : Loc nD τ sig) → Buf (Elt Ideal) ℓ) (ρ : Dev nD → PrngReg)

/-- The constant the running maximum is filled with at a row block's first point. -/
abbrev fillMax : EReal := Ideal.ofBits .f32 0xFF333332#32

/-- The online-softmax state of row `q`, channel `d`, after the first `n` chunks of 1024 columns. -/
def rowState (S : S8192x8192.Idx → Elt Ideal .f32) (V : S128x8192.Idx → Elt Ideal .f32) (q : Fin 8192) (d : Fin 128)
    (n : ℕ) : EReal × EReal × EReal :=
  run negInf (chunk (K := 8) (n := 1024) (fun k => (S (ix2 q k) : EReal)) (0 : EReal))
    (chunk (K := 8) (n := 1024) (fun k => (V (ix2 d k) : EReal)) (0 : EReal)) (fillMax, 0, 0) n

/-- THE RESULT: entry `(q, d)` is the weighted sum over the row sum of row `q`'s state after all 8 chunks. -/
def G (S : S8192x8192.Idx → Elt Ideal .f32) (V : S128x8192.Idx → Elt Ideal .f32) : S8192x128.Idx → Elt Ideal .f32 :=
  fun j => Ideal.div (rowState S V (j 0) (j 1) 8).2.2 (rowState S V (j 0) (j 1) 8).2.1

/-- Two more chunks are two more steps. -/
theorem rowState_add_two (S : S8192x8192.Idx → Elt Ideal .f32) (V : S128x8192.Idx → Elt Ideal .f32) (q : Fin 8192)
    (d : Fin 128) (n : ℕ) :
    rowState S V q d (n + 2)
      = step negInf (chunk (K := 8) (n := 1024) (fun k => (S (ix2 q k) : EReal)) (0 : EReal) (n + 1))
          (chunk (K := 8) (n := 1024) (fun k => (V (ix2 d k) : EReal)) (0 : EReal) (n + 1))
          (step negInf (chunk (K := 8) (n := 1024) (fun k => (S (ix2 q k) : EReal)) (0 : EReal) n)
            (chunk (K := 8) (n := 1024) (fun k => (V (ix2 d k) : EReal)) (0 : EReal) n) (rowState S V q d n)) := rfl

/-! ## Where each point's blocks sit -/

/-- The printed index maps and the values' column offsets, decided over the grid. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ k0_off1 (grid0.coords t) 0#32 (0 : Fin 2) = 0 ∧ k0_off1 (grid0.coords t) 0#32 (1 : Fin 2) = 2048 * (t.val % 4)
    ∧ k0_off1 (grid0.coords t) 1024#32 (0 : Fin 2) = 0
    ∧ k0_off1 (grid0.coords t) 1024#32 (1 : Fin 2) = 2048 * (t.val % 4) + 1024 :=
  (by decide +kernel : ∀ t : Fin grid0.N, _)

/-- The score tile of point `t` at `(p, k)` is the scores at row `1024·(t / 4) + p`, column `2048·(t % 4) + k`. -/
theorem scoreTile_apply (c : Dev nD) (t : Fin cfg0.N) (x0 : Vec Ideal S1024x2048 .f32) (hx : x0 = iblk m c 0 t)
    (p : Fin 1024) (k : Fin 2048) (q k' : Fin 8192) (hq : q.val = 1024 * (t.val / 4) + p.val)
    (hk : k'.val = 2048 * (t.val % 4) + k.val) :
    x0 (ix2 p k) = m ((c : Thread nD τ).loc main_arg0) (ix2 q k') := by
  subst hx
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 1024 + 1 * p.val = q.val; omega
  | ⟨1, _⟩ => show win0_0.index t (1 : Fin 2) * 2048 + 1 * k.val = k'.val; omega

/-- The values as the region finds them: the argument, its change of format being the identity on the extended reals. -/
theorem castValues (c : Dev nD) :
    (V m c main_v0 : FVec Ideal S128x8192 .bf16)
      = (truncf .bf16 (m ((c : Thread nD τ).loc main_arg1) : FVec Ideal S128x8192 .f32) bitsLt_bf16_f32 : FVec Ideal S128x8192 .bf16) := by
  dsimp only [V, hostOps0]; after_results

/-- The values' tile is the whole array at every point. -/
theorem valueTile_apply (c : Dev nD) (t : Fin cfg0.N) (x1 : Vec Ideal S128x8192 .bf16) (hx : x1 = iblk m c 1 t)
    (d : Fin 128) (k : Fin 8192) :
    x1 (ix2 d k) = m ((c : Thread nD τ).loc main_arg1) (ix2 d k) := by
  subst hx
  unfold iblk
  rw [View.read_apply]
  show V m c main_v0 _ = _
  rw [castValues]
  show m ((c : Thread nD τ).loc main_arg1) _ = _
  refine congrArg _ (funext fun a => Fin.ext ?_)
  obtain ⟨-, -, e2, e3, -⟩ := idx_facts t
  match a with
  | ⟨0, _⟩ => show win0_1.index t (0 : Fin 2) * 128 + 1 * d.val = d.val; omega
  | ⟨1, _⟩ => show win0_1.index t (1 : Fin 2) * 8192 + 1 * k.val = k.val; omega

/-- The first half of a score tile at `(p, k)`. -/
theorem sLo_apply (x0 : Vec Ideal S1024x2048 .f32) (p k : Fin 1024) (k' : Fin 2048) (hk : k'.val = k.val) :
    sLo x0 (ix2 p k) = x0 (ix2 p k') :=
  congrArg x0 (funext fun a => Fin.ext (by
    match a with
    | ⟨0, _⟩ => show 0 + 1 * p.val = p.val; omega
    | ⟨1, _⟩ => show 0 + 1 * k.val = k'.val; omega))

/-- The second half of a score tile at `(p, k)`. -/
theorem sHi_apply (x0 : Vec Ideal S1024x2048 .f32) (p k : Fin 1024) (k' : Fin 2048) (hk : k'.val = 1024 + k.val) :
    sHi x0 (ix2 p k) = x0 (ix2 p k') :=
  congrArg x0 (funext fun a => Fin.ext (by
    match a with
    | ⟨0, _⟩ => show 0 + 1 * p.val = p.val; omega
    | ⟨1, _⟩ => show 1024 + 1 * k.val = k'.val; omega))

/-- A 1024-column slice of the values at `(d, k)`. -/
theorem vSlice_apply (i : grid0.Coords) (off : BitVec 32) (inb) (x1 : Vec Ideal S128x8192 .bf16) (d : Fin 128)
    (k : Fin 1024) (k' : Fin 8192) (h0 : k0_off1 i off (0 : Fin 2) = 0) (hk : k'.val = k0_off1 i off (1 : Fin 2) + k.val) :
    View.ld x1 (Rect.unit (k0_off1 i off) ![128, 1024] inb) (ix2 d k) = x1 (ix2 d k') :=
  congrArg x1 (funext fun a => Fin.ext (by
    match a with
    | ⟨0, _⟩ => show k0_off1 i off (0 : Fin 2) + 1 * d.val = d.val; omega
    | ⟨1, _⟩ => show k0_off1 i off (1 : Fin 2) + 1 * k.val = k'.val; omega))

/-! ## One point advances a row's state by two chunks -/

/-- If the carried buffers hold, at row `p` and channel `d`, the state of row `1024·(t / 4) + p` after `2·(t % 4)` chunks,
    then after point `t` they hold its state after two more. -/
theorem point_state (c : Dev nD) (t : Fin cfg0.N) (x0 : Vec Ideal S1024x2048 .f32) (hx0 : x0 = iblk m c 0 t)
    (x1 : Vec Ideal S128x8192 .bf16) (hx1 : x1 = iblk m c 1 t) (mx sm : Vec Ideal S1024x1 .f32)
    (ac : Vec Ideal S1024x128 .f32) (p : Fin 1024) (d : Fin 128) (q : Fin 8192)
    (hq : q.val = 1024 * (t.val / 4) + p.val)
    (hst : (mx (ix2 p 0), sm (ix2 p 0), ac (ix2 p d))
      = rowState (m ((c : Thread nD τ).loc main_arg0)) (m ((c : Thread nD τ).loc main_arg1)) q d (2 * (t.val % 4))) :
    (newMax x0 mx (ix2 p 0), newSum x0 mx sm (ix2 p 0), newAcc (grid0.coords t) x0 x1 ac mx (ix2 p d))
      = rowState (m ((c : Thread nD τ).loc main_arg0)) (m ((c : Thread nD τ).loc main_arg1)) q d (2 * (t.val % 4) + 2) := by
  have hj : t.val % 4 < 4 := Nat.mod_lt _ (by decide)
  obtain ⟨-, -, -, -, -, -, o0, o1, o2, o3⟩ := idx_facts t
  have hs0 : (fun k : Fin 1024 => sLo x0 (ix2 p k))
      = chunk (K := 8) (n := 1024) (fun k => (m ((c : Thread nD τ).loc main_arg0) (ix2 q k) : EReal)) (0 : EReal) (2 * (t.val % 4)) :=
    funext fun k => by
      rw [chunk_of_lt _ _ (2 * (t.val % 4)) (by omega) k,
        sLo_apply x0 p k ⟨k.val, by have := k.isLt; omega⟩ rfl,
        scoreTile_apply m c t x0 hx0 p ⟨k.val, by have := k.isLt; omega⟩ q
          ⟨2048 * (t.val % 4) + k.val, by have := k.isLt; omega⟩ hq rfl]
      exact congrArg _ (congrArg (ix2 q) (Fin.ext (by show 2048 * (t.val % 4) + k.val = 2 * (t.val % 4) * 1024 + k.val; omega)))
  have hs1 : (fun k : Fin 1024 => sHi x0 (ix2 p k))
      = chunk (K := 8) (n := 1024) (fun k => (m ((c : Thread nD τ).loc main_arg0) (ix2 q k) : EReal)) (0 : EReal) (2 * (t.val % 4) + 1) :=
    funext fun k => by
      rw [chunk_of_lt _ _ (2 * (t.val % 4) + 1) (by omega) k,
        sHi_apply x0 p k ⟨1024 + k.val, by have := k.isLt; omega⟩ rfl,
        scoreTile_apply m c t x0 hx0 p ⟨1024 + k.val, by have := k.isLt; omega⟩ q
          ⟨2048 * (t.val % 4) + (1024 + k.val), by have := k.isLt; omega⟩ hq rfl]
      exact congrArg _ (congrArg (ix2 q) (Fin.ext (by show 2048 * (t.val % 4) + (1024 + k.val) = (2 * (t.val % 4) + 1) * 1024 + k.val; omega)))
  have hv0 : (fun k : Fin 1024 => vLo (grid0.coords t) x1 (ix2 d k))
      = chunk (K := 8) (n := 1024) (fun k => (m ((c : Thread nD τ).loc main_arg1) (ix2 d k) : EReal)) (0 : EReal) (2 * (t.val % 4)) :=
    funext fun k => by
      rw [chunk_of_lt _ _ (2 * (t.val % 4)) (by omega) k]
      refine (vSlice_apply (grid0.coords t) 0#32 _ x1 d k ⟨2048 * (t.val % 4) + k.val, by have := k.isLt; omega⟩ o0
        (by rw [o1])).trans ?_
      rw [valueTile_apply m c t x1 hx1]
      exact congrArg _ (congrArg (ix2 d) (Fin.ext (by show 2048 * (t.val % 4) + k.val = 2 * (t.val % 4) * 1024 + k.val; omega)))
  have hv1 : (fun k : Fin 1024 => vHi (grid0.coords t) x1 (ix2 d k))
      = chunk (K := 8) (n := 1024) (fun k => (m ((c : Thread nD τ).loc main_arg1) (ix2 d k) : EReal)) (0 : EReal) (2 * (t.val % 4) + 1) :=
    funext fun k => by
      rw [chunk_of_lt _ _ (2 * (t.val % 4) + 1) (by omega) k]
      refine (vSlice_apply (grid0.coords t) 1024#32 _ x1 d k ⟨2048 * (t.val % 4) + 1024 + k.val, by have := k.isLt; omega⟩ o2
        (by rw [o3])).trans ?_
      rw [valueTile_apply m c t x1 hx1]
      exact congrArg _ (congrArg (ix2 d) (Fin.ext (by show 2048 * (t.val % 4) + 1024 + k.val = (2 * (t.val % 4) + 1) * 1024 + k.val; omega)))
  rw [point_eq_steps, hst, hs0, hs1, hv0, hv1]
  rfl

/-! ## The fills of a row block's first point -/

theorem fillMax_apply (p : Fin 1024) : k0_pay3 (F := Ideal) (ix2 p 0) = fillMax := by
  unfold k0_pay3
  exact congrFun (shapeCast_self _ _) _

theorem fillSum_apply (p : Fin 1024) : k0_pay4 (F := Ideal) (ix2 p 0) = 0 := by
  unfold k0_pay4
  exact (congrFun (shapeCast_self _ _) _).trans Ideal.ofBits_zero_f32

theorem fillAcc_apply (p : Fin 1024) (d : Fin 128) : k0_pay5 (F := Ideal) (ix2 p d) = 0 := by
  unfold k0_pay5
  exact (congrFun (shapeCast_self _ _) _).trans Ideal.ofBits_zero_f32

/-! ## The carried buffers after every point -/

/-- THE INDUCTION over the grid's points: after point `n` the carried buffers hold, at row `p` and channel `d`, the state
    of row `1024·(n / 4) + p` after `2·(n % 4) + 2` chunks. -/
theorem state_at (c : Dev nD) (n : ℕ) : ∀ (h : n < cfg0.N) (p : Fin 1024) (d : Fin 128) (q : Fin 8192),
    q.val = 1024 * (n / 4) + p.val →
    ((outsAt0 m c n h).2.2.1 (ix2 p 0), (outsAt0 m c n h).2.2.2 (ix2 p 0), (outsAt0 m c n h).2.1 (ix2 p d))
      = rowState (m ((c : Thread nD τ).loc main_arg0)) (m ((c : Thread nD τ).loc main_arg1)) q d (2 * (n % 4) + 2) := by
  induction n using Nat.strong_induction_on with
  | _ n ih =>
    intro h p d q hq
    have hN : cfg0.N = 32 := N_0
    by_cases h0 : n % 4 = 0
    · have h1 : ¬ n % 4 = 3 := by omega
      have eA := first_acc (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N))
      have eM := first_max (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N))
      have eL := first_sum (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N))
      rw [outsAt0_A m c (⟨n, h⟩ : Fin cfg0.N) h0 h1]
      dsimp only
      rw [eA, eM, eL]
      refine point_state m c (⟨n, h⟩ : Fin cfg0.N) _ rfl _ rfl _ _ _ p d q hq ?_
      have e0 : 2 * (((⟨n, h⟩ : Fin cfg0.N)).val % 4) = 0 := by show 2 * (n % 4) = 0; omega
      rw [e0, fillMax_apply, fillSum_apply, fillAcc_apply]
      rfl
    · have hprev := ih (n - 1) (by omega) (by omega) p d q (by omega)
      have e2 : 2 * ((n - 1) % 4) + 2 = 2 * (((⟨n, h⟩ : Fin cfg0.N)).val % 4) := by show _ = 2 * (n % 4); omega
      rw [e2] at hprev
      by_cases h1 : n % 4 = 3
      · have eA := last_acc (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2
        have eM := last_max (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2
        have eL := last_sum (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2
        rw [outsAt0_C m c (⟨n, h⟩ : Fin cfg0.N) h0 h1]
        dsimp only
        rw [eA, eM, eL]
        exact point_state m c (⟨n, h⟩ : Fin cfg0.N) _ rfl _ rfl _ _ _ p d q hq hprev
      · have eA := next_acc (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2
        have eM := next_max (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2
        have eL := next_sum (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) scM0_1 (Memref.isWhole_whole _) scM0_2 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.1 (outsAt0 m c ((⟨n, h⟩ : Fin cfg0.N).val - 1) (Nat.lt_of_le_of_lt (Nat.sub_le _ _) (⟨n, h⟩ : Fin cfg0.N).isLt)).2.2.1 (outsAt0 m c ((⟨n, h⟩ : Fin cfg0.N).val - 1) (Nat.lt_of_le_of_lt (Nat.sub_le _ _) (⟨n, h⟩ : Fin cfg0.N).isLt)).2.2.2
        rw [outsAt0_B m c (⟨n, h⟩ : Fin cfg0.N) h0 h1]
        dsimp only
        rw [eA, eM, eL]
        exact point_state m c (⟨n, h⟩ : Fin cfg0.N) _ rfl _ rfl _ _ _ p d q hq hprev

/-! ## What a row block's last point writes back, and the array the eight write-backs leave -/

/-- The output tile at `(p, d)`: the weighted sum over the row sum. -/
theorem out_apply (a : Vec Ideal S1024x128 .f32) (l : Vec Ideal S1024x1 .f32) (p : Fin 1024) (d : Fin 128) :
    k0_pay2 a l (ix2 p d) = Ideal.div (a (ix2 p d)) (l (ix2 p 0)) := by
  unfold k0_pay2
  exact congrArg (Ideal.div (a (ix2 p d))) (broadcastTo_a1_ab_apply _ _ p d)

/-- The output tile of a row block's last point, entry by entry, is `G` at the rows of that block. -/
theorem lastTile_apply (c : Dev nD) (t : Fin cfg0.N) (h0 : ¬ t.val % 4 = 0) (h3 : t.val % 4 = 3) (p : Fin 1024) (d : Fin 128)
    (q : Fin 8192) (hq : q.val = 1024 * (t.val / 4) + p.val) :
    k0_pay2 (newAcc (grid0.coords t) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1)
        (newSum (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p d)
      = G (m ((c : Thread nD τ).loc main_arg0)) (m ((c : Thread nD τ).loc main_arg1)) (ix2 q d) := by
  have hN : cfg0.N = 32 := N_0
  have ht := t.isLt
  have hprev := state_at m c (t.val - 1) (by omega) p d q (by omega)
  have e2 : 2 * ((t.val - 1) % 4) + 2 = 2 * (t.val % 4) := by omega
  rw [e2] at hprev
  have hs := point_state m c t _ rfl _ rfl _ _ _ p d q hq hprev
  have e8 : 2 * (t.val % 4) + 2 = 8 := by omega
  rw [e8] at hs
  rw [out_apply]
  show Ideal.div _ _ = Ideal.div (rowState _ _ q d 8).2.2 (rowState _ _ q d 8).2.1
  rw [← hs]

/-- WHAT A FLUSHING POINT WRITES BACK is its block of `G` of the argument arrays. -/
theorem flushed_eq (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1))) := by
  have h3 : t.val % 4 = 3 := (flush0_2 t).mp hf
  have h0 : ¬ t.val % 4 = 0 := by omega
  have eO := last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [Value.flushed2_C m c t h0 h3, eO]
  funext j
  obtain ⟨p, d, rfl⟩ : ∃ (p : Fin 1024) (d : Fin 128), j = ix2 p d := ⟨j 0, j 1, eq_ix2 j⟩
  obtain ⟨-, -, -, -, e4, e5, -⟩ := idx_facts t
  have hN : cfg0.N = 32 := N_0
  have ht := t.isLt
  have hemb : ((cfg0.win 2).blk t).view.emb (ix2 p d)
      = ix2 (⟨1024 * (t.val / 4) + p.val, by have := p.isLt; omega⟩ : Fin 8192) d :=
    funext fun a => Fin.ext (by
      match a with
      | ⟨0, _⟩ => show win0_2.index t (0 : Fin 2) * 1024 + 1 * p.val = 1024 * (t.val / 4) + p.val; omega
      | ⟨1, _⟩ => show win0_2.index t (1 : Fin 2) * 128 + 1 * d.val = d.val; omega)
  rw [View.read_apply, hemb]
  exact lastTile_apply m c t h0 h3 p d _ rfl

/-- An index of the result array is in point `t`'s block iff each coordinate is in the block's range on its axis. -/
theorem mem_blk (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v1).slice (win0_2.rect t)).set ↔ _
  rw [View.set_slice_whole, Rect.mem_set_unit]
  exact Iff.rfl

/-- THE ARRAY after the run: the eight tiles written back at the row blocks' last points tile it, so it is `G`. -/
theorem final (c : Dev nD) :
    (dats m 0 c).arrAt 2 cfg0.N = G (m ((c : Thread nD τ).loc main_arg0)) (m ((c : Thread nD τ).loc main_arg1)) :=
  (dats m 0 c).arrAt_eq_of_cover 2 _ (flushed_eq m c) fun i => by
    have hN : cfg0.N = 32 := N_0
    have hi0 : (i 0).val < 8192 := (i 0).isLt
    have hi1 : (i 1).val < 128 := (i 1).isLt
    have hlt : 4 * ((i 0).val / 1024) + 3 < cfg0.N := by rw [hN]; omega
    refine ⟨⟨4 * ((i 0).val / 1024) + 3, hlt⟩, (flush0_2 _).mpr (by show (4 * ((i 0).val / 1024) + 3) % 4 = 3; omega), ?_⟩
    obtain ⟨-, -, -, -, e4, e5, -⟩ := idx_facts ⟨4 * ((i 0).val / 1024) + 3, hlt⟩
    rw [mem_blk]
    intro a
    match a with
    | ⟨0, _⟩ =>
      show win0_2.index ⟨4 * ((i 0).val / 1024) + 3, hlt⟩ (0 : Fin 2) * 1024 ≤ (i 0).val
        ∧ (i 0).val < win0_2.index ⟨4 * ((i 0).val / 1024) + 3, hlt⟩ (0 : Fin 2) * 1024 + 1024
      rw [e4]; dsimp only; omega
    | ⟨1, _⟩ =>
      show win0_2.index ⟨4 * ((i 0).val / 1024) + 3, hlt⟩ (1 : Fin 2) * 128 ≤ (i 1).val
        ∧ (i 1).val < win0_2.index ⟨4 * ((i 0).val / 1024) + 3, hlt⟩ (1 : Fin 2) * 128 + 128
      rw [e5]; omega

/-- The kernel's run, read: the result array ends at `G` of the argument arrays, which end unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.FlashValue

end
-- ==== Proof.LibHostKeepdims.lean ====
/-
  The host's row reductions kept as a column, read at coordinates on the extended reals: the host's side of
  `max(x, axis=-1, keepdims=True)` and `sum(x, axis=-1, keepdims=True)` on an `[a, b]` matrix.

  * the host's `reduce` with a maximum body over the second axis, from −∞, at row `i`: the fold of `max` from −∞ over
    the row's entries `(i, k)` — and −∞ is neutral for `max`;
  * the host's float sum over the second axis, from an initial value that is zero, at row `i`: the sum of the row's entries;
  * an `[a]` vector broadcast to the column `[a, 1]` along axis 0, at `(i, u)`: the vector at `i`;
  * an `[a, 1]` column broadcast to `[a, b]` along axes `[0, 1]`, at `(i, j)`: the column at `(i, 0)`;
  * an `[n]` vector reshaped to the one-row matrix `[1, n]` is the vector broadcast there along axis 1.
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Lib.HostKeepdims

open Idealize.ShloMosaic Idealize.ShloMosaic.ValueIdx

variable {α : Type}

/-- Row `i` with column `k` put back on the reduced second axis is `(i, k)`. -/
theorem lift_axis1 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The float word of −∞ is the least extended real: the maximum with it changes nothing. -/
theorem max_negInf (y : Ideal .f32) : max (Ideal.ofBits .f32 0xFF800000#32) y = y := by
  simp [Ideal.ofBits, Ideal.ieee]

/-- The host's `reduce` with a maximum body over the second axis, from −∞, at row `i`. -/
theorem reduce_maximumf_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduce FloatOps.maximumf x (constant (⟨0, ![]⟩ : Shape) .f32 0xFF800000#32) h' hu (ix1 i)
      = (Finset.univ : Finset (Fin b)).fold max (Ideal.ofBits .f32 0xFF800000#32) (fun k => x (ix2 i k)) := by
  have h : (⟨2, ![a, b]⟩ : Shape).Reduces [1] (⟨1, ![a]⟩ : Shape) := ⟨h'.1, Nat.one_pos, h'.2⟩
  rw [Host.reduce_eq_fold_single FloatOps.maximumf x _ h' h hu]
  have hf : (x ∘ h.lift (ix1 i)) = fun k : Fin b => x (ix2 i k) := funext fun k => congrArg x (lift_axis1 h i k)
  exact congrArg (fun f => Finset.fold max (Ideal.ofBits .f32 0xFF800000#32) f (Finset.univ : Finset (Fin b))) hf

/-- The host's float sum over the second axis, from zero, at row `i`: the sum of the row's entries. -/
theorem reduceAdd_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduceAdd x (constant (⟨0, ![]⟩ : Shape) .f32 0x00000000#32) h' hu (ix1 i) = ∑ k : Fin b, x (ix2 i k) := by
  have h : (⟨2, ![a, b]⟩ : Shape).Reduces [1] (⟨1, ![a]⟩ : Shape) := ⟨h'.1, Nat.one_pos, h'.2⟩
  show Ideal.hostReduceAdd h' x _ (ix1 i) = _
  rw [Ideal.hostReduceAdd_single h' h]
  show Ideal.ofBits .f32 0x00000000#32 + _ = _
  rw [Ideal.ofBits_zero_f32, zero_add]
  exact Finset.sum_congr rfl fun k _ => congrArg x (lift_axis1 h i k)

/-- An `[a]` vector broadcast to the column `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` along axes `[0, 1]` reads, at `(i, j)`, the column at `(i, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[n]` vector reshaped to one row is the vector broadcast to `[1, n]` along axis 1. -/
theorem shapeCast_row_eq_broadcastInDim {n : ℕ} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    have h0 : (i 0).val = 0 := by have := (i 0).isLt; have e : (i 0).val < 1 := this; omega
    rw [Shape.rowMajor_val_two, Shape.rowMajor_val_one]; show (i 1).val = (i 0).val * n + (i 1).val; rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.Lib.HostKeepdims

end
-- ==== Proof.RefValue.lean ====
import proofs.«100095_j54812372631763_2_alg».proof.Proof.Gen.ReferenceIdeal.Read
import proofs.«100095_j54812372631763_2_alg».proof.Proof.LibHostKeepdims

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lib.HostKeepdims

/-! # The reference's result, on the extended reals

The reference takes each row's maximum (folded from minus infinity, then joined with minus infinity once more, which
changes nothing), subtracts it, exponentiates, sums the row, divides each exponential by that sum, and contracts the
quotients with the values over the 8192 columns. Entry `(q, d)` of its result is therefore the sum over the columns `k`
of `exp (S(q,k) - M_q) / ∑ₖ' exp (S(q,k') - M_q)` times `V(d,k)`, with `M_q` the row's maximum. -/

/-- The maximum of row `q`, folded from minus infinity. -/
def rowMax (S : S8192x8192.Idx → EReal) (q : Fin 8192) : EReal :=
  (Finset.univ : Finset (Fin 8192)).fold max (Ideal.ofBits .f32 0xFF800000#32) fun k => S (ix2 q k)

/-- THE REFERENCE'S RESULT as one function of the arguments. -/
def R (S : S8192x8192.Idx → EReal) (V : S128x8192.Idx → EReal) : S8192x128.Idx → EReal := fun j =>
  ∑ k : Fin 8192, Ideal.div (Ideal.exp (S (ix2 (j 0) k) - rowMax S (j 0)))
    (∑ k' : Fin 8192, Ideal.exp (S (ix2 (j 0) k') - rowMax S (j 0))) * V (ix2 (j 1) k)

/-- The broadcast row maximum at `(q, k)`. -/
theorem max_apply (x0 : (⟨S8192x8192, .f32⟩ : BufTy).Contents (Elt Ideal)) (q k : Fin 8192) :
    val_main_v4 (F := Ideal) x0 (ix2 q k) = rowMax x0 q := by
  have e : idx_main_v3 (idx_main_v4 (ix2 q k)) = ix1 q :=
    funext fun a => Fin.ext (by match a with | ⟨0, _⟩ => rfl)
  rw [val_main_v4_apply, val_main_v3_apply, val_main_v2_apply, e, val_main_v1_apply, val_main_cst_0_apply]
  show max (Ideal.ofBits .f32 0xFF800000#32) (val_main_v0 (F := Ideal) x0 (ix1 q)) = _
  rw [max_negInf]
  unfold val_main_v0 val_main_cst
  exact reduce_maximumf_row x0 _ _ q

/-- The exponentials at `(q, k)`. -/
theorem exp_apply (x0 : (⟨S8192x8192, .f32⟩ : BufTy).Contents (Elt Ideal)) (q k : Fin 8192) :
    val_main_v6 (F := Ideal) x0 (ix2 q k) = Ideal.exp (x0 (ix2 q k) - rowMax x0 q) := by
  rw [val_main_v6_apply, val_main_v5_apply, max_apply]
  rfl

/-- The broadcast row sum at `(q, k)`. -/
theorem sum_apply (x0 : (⟨S8192x8192, .f32⟩ : BufTy).Contents (Elt Ideal)) (q k : Fin 8192) :
    val_main_v9 (F := Ideal) x0 (ix2 q k) = ∑ k' : Fin 8192, Ideal.exp (x0 (ix2 q k') - rowMax x0 q) := by
  have e : idx_main_v8 (idx_main_v9 (ix2 q k)) = ix1 q :=
    funext fun a => Fin.ext (by match a with | ⟨0, _⟩ => rfl)
  rw [val_main_v9_apply, val_main_v8_apply, e, val_main_v7_apply, val_main_cst_1_apply]
  show Ideal.ofBits .f32 0x00000000#32 + _ = _
  rw [Ideal.ofBits_zero_f32, zero_add]
  refine Finset.sum_congr rfl fun k' _ => ?_
  have e7 : idx_main_v7 (ix1 q) k' = ix2 q k' :=
    funext fun a => Fin.ext (by match a with | ⟨0, _⟩ => rfl | ⟨1, _⟩ => rfl)
  rw [e7, exp_apply]

/-- THE REFERENCE IS `R`: its last stage, entry by entry. -/
theorem result_eq (x0 : (⟨S8192x8192, .f32⟩ : BufTy).Contents (Elt Ideal))
    (x1 : (⟨S128x8192, .f32⟩ : BufTy).Contents (Elt Ideal)) :
    val_main_v11 (F := Ideal) x0 x1 = R x0 x1 := by
  funext j
  obtain ⟨q, d, rfl⟩ : ∃ (q : Fin 8192) (d : Fin 128), j = ix2 q d := ⟨j 0, j 1, eq_ix2 j⟩
  rw [val_main_v11_apply]
  unfold R
  refine Finset.sum_congr rfl fun k _ => ?_
  have el : lidx_main_v11 (ix2 q d) k = ix2 q k :=
    funext fun a => Fin.ext (by match a with | ⟨0, _⟩ => rfl | ⟨1, _⟩ => rfl)
  have er : ridx_main_v11 (ix2 q d) k = ix2 d k :=
    funext fun a => Fin.ext (by match a with | ⟨0, _⟩ => rfl | ⟨1, _⟩ => rfl)
  rw [el, er, val_main_v10_apply, exp_apply, sum_apply]
  rfl

end Cert.ReferenceIdeal.RefValue

end
-- ==== Proof.Bridge.lean ====
import proofs.«100095_j54812372631763_2_alg».proof.Proof.KernelValue
import proofs.«100095_j54812372631763_2_alg».proof.Proof.RefValue

noncomputable section

open scoped BigOperators

namespace Cert.Proof.Bridge

open Idealize.ShloMosaic Idealize.ShloMosaic.ValueIdx Cert.Lib.OnlineSoftmax
open Cert.KernelIdeal.FlashValue Cert.KernelIdeal.Step Cert.ReferenceIdeal.RefValue

/-- THE TWO SIDES ARE ONE FUNCTION on real data. The kernel's entry `(q, d)` is the online-softmax quotient of row `q`
    and channel `d` after all 8 chunks, started from a real fill of the running maximum; the reference's is the
    softmax-weighted sum written against the row's true maximum, a real number because the row is nonempty and real. The
    online form equals the softmax-weighted sum against any real shift. -/
theorem kernel_eq_reference (S : (⟨2, ![8192, 8192]⟩ : Shape).Idx → EReal) (V : (⟨2, ![128, 8192]⟩ : Shape).Idx → EReal)
    (hS : ∀ i, ∃ r : ℝ, S i = (r : EReal)) (hV : ∀ i, ∃ r : ℝ, V i = (r : EReal)) :
    G S V = R S V := by
  choose sr hsr using hS
  choose vr hvr using hV
  obtain ⟨c0, hc0⟩ := Cert.Lib.RealWord.ofBits_f32_real 0xFF333332#32 (by decide)
  funext j
  obtain ⟨q, d, rfl⟩ : ∃ (q : Fin 8192) (d : Fin 128), j = ix2 q d := ⟨j 0, j 1, eq_ix2 j⟩
  obtain ⟨M, hM⟩ := fold_real (ι := Fin 8192) negInf_ne_top (fun k => sr (ix2 q k))
  haveI : Nonempty (Fin (8 * 1024)) := ⟨⟨0, by decide⟩⟩
  have key := online_eq_softmax 8 1024 negInf_ne_top c0 (fun k => sr (ix2 q k)) (fun k => vr (ix2 d k)) M
  have hmax : rowMax S q = (M : EReal) := by
    unfold rowMax
    simp only [hsr]
    exact hM
  show Ideal.div (rowState S V q d 8).2.2 (rowState S V q d 8).2.1
    = ∑ k : Fin 8192, Ideal.div (Ideal.exp (S (ix2 q k) - rowMax S q))
        (∑ k' : Fin 8192, Ideal.exp (S (ix2 q k') - rowMax S q)) * V (ix2 d k)
  unfold rowState
  rw [hmax]
  simp only [hsr, hvr, hc0]
  exact key

end Cert.Proof.Bridge

end
-- ==== Proof.lean ====
/-
  A tiled attention kernel against `softmax(S) · Vᵀ`.

  The kernel visits the 8192 × 8192 scores `S` in tiles of 1024 rows by 2048 columns, the column tile moving fastest,
  with all of the 128 × 8192 values `V` beside it. For each row it carries a running maximum `m`, a running sum `l` of
  `exp (S - m)` and, per value channel, a running sum `a` of `exp (S - m) · V`; every half tile (1024 columns) raises
  `m` to the larger of `m` and the half's row maximum, rescales `l` and `a` by `exp (m_old - m_new)` and adds the half's
  own terms. The running maximum starts from a large negative real constant (not from minus infinity), `l` and `a` from
  zero, and at a row block's last column tile the output tile is `a / l`.

  The reference subtracts each row's maximum, exponentiates, divides by the row sum and contracts with the values:
  `O(q, d) = ∑ₖ (exp (S(q,k) - M_q) / ∑ₖ' exp (S(q,k') - M_q)) · V(d,k)`.

  On the extended reals with exact operations the two agree when every input is a real number: after any number of
  chunks `l = ∑ exp (S - m)` and `a = ∑ exp (S - m) · V` over the columns seen, for the real number `m` then carried —
  which real number is irrelevant, so the finite starting constant does no harm —, and the softmax-weighted sum is the same
  against every real shift because the positive factor `exp (m - M_q)` is common to numerator and denominator. Finiteness
  is used exactly there: the rescaling law `exp (x) · exp (y) = exp (x + y)`, the distribution of the rescaling factor over
  the sums, and the cancellation in the quotient hold for real numbers, not at the infinities. Changes of float format are
  the identity on the extended reals, and the matrix unit's product into a zero accumulator is the plain sum of products.

  The modules: `LibOnlineSoftmax` (the mathematics, over abstract finite index sets), `KernelPieces` (which composition of
  the body's arithmetic each carried buffer holds after a grid point, for any float instance), `KernelStep` (that
  arithmetic read at one row and channel: a grid point is two steps of the online update), `KernelValue` (induction over
  the grid's points; the tiles written back cover the result array), `RefValue` (the reference read at an entry),
  `Finite` (the precondition makes every entry real), `Bridge` (the two results are one function on real data).
-/
import proofs.«100095_j54812372631763_2_alg».proof.Defs
import proofs.«100095_j54812372631763_2_alg».proof.Proof.Gen.Kernel
import proofs.«100095_j54812372631763_2_alg».proof.Proof.Gen.Kernel.Skeleton
import proofs.«100095_j54812372631763_2_alg».proof.Proof.Gen.Kernel.Launch
import proofs.«100095_j54812372631763_2_alg».proof.Proof.Gen.Kernel.Points
import proofs.«100095_j54812372631763_2_alg».proof.Proof.Gen.Kernel.Frame
import proofs.«100095_j54812372631763_2_alg».proof.Proof.Gen.KernelIdeal
import proofs.«100095_j54812372631763_2_alg».proof.Proof.Gen.KernelIdeal.Skeleton
import proofs.«100095_j54812372631763_2_alg».proof.Proof.Gen.KernelIdeal.Launch
import proofs.«100095_j54812372631763_2_alg».proof.Proof.Gen.KernelIdeal.Points
import proofs.«100095_j54812372631763_2_alg».proof.Proof.Gen.KernelIdeal.Frame
import proofs.«100095_j54812372631763_2_alg».proof.Proof.Gen.ReferenceIdeal
import proofs.«100095_j54812372631763_2_alg».proof.Proof.Gen.Pre_finite_inputs
import proofs.«100095_j54812372631763_2_alg».proof.Proof.Gen.KernelIdeal.Value
import proofs.«100095_j54812372631763_2_alg».proof.Proof.Gen.ReferenceIdeal.Run
import proofs.«100095_j54812372631763_2_alg».proof.Proof.Gen.ReferenceIdeal.Read
import proofs.«100095_j54812372631763_2_alg».proof.Proof.Finite
import proofs.«100095_j54812372631763_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- The reference runs and leaves its arguments unchanged: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on finite arguments, both programs end with the same result array: the kernel's is the online
    quotient `G` of its arguments, the reference's the softmax-weighted sum `R` of its own, and on real data these are
    one function. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.FlashValue.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.FlashValue.run m ρ, ?_⟩
  refine (θ_run Cert.ReferenceIdeal.defs _ _).mono (fun _ h c => ⟨?_, (h c).2⟩)
    (Cert.ReferenceIdeal.Value.run (F := Ideal) m' ρ')
  have hfin := Cert.Pre_finite_inputs.Finite.entries_real _ _ (hpre c)
  rw [(h c).1, Cert.ReferenceIdeal.Read.val_main_v11_eq, Cert.ReferenceIdeal.RefValue.result_eq, (hagree c).1, (hagree c).2]
  exact (Cert.Proof.Bridge.kernel_eq_reference _ _ hfin.1 hfin.2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
